-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S11008x4096 : Shape := ⟨2, ![11008, 4096]⟩
abbrev S11008 : Shape := ⟨1, ![11008]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8x512x4096 .f32) (main_arg1 : IVec S11008x4096 32) (main_arg2 : FVec F S11008 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  main_v8
-- ==== Kernel.lean ====
abbrev S8x512x4096 : Shape := ⟨3, ![8, 512, 4096]⟩
abbrev S11008x4096 : Shape := ⟨2, ![11008, 4096]⟩
abbrev S11008 : Shape := ⟨1, ![11008]⟩
abbrev S4096x4096 : Shape := ⟨2, ![4096, 4096]⟩
abbrev S4096x11008 : Shape := ⟨2, ![4096, 11008]⟩
abbrev S512x4096 : Shape := ⟨2, ![512, 4096]⟩
abbrev S256x4096 : Shape := ⟨2, ![256, 4096]⟩
abbrev S256 : Shape := ⟨1, ![256]⟩
abbrev S512x256 : Shape := ⟨2, ![512, 256]⟩
abbrev S256x1 : Shape := ⟨2, ![256, 1]⟩
abbrev S8x512x11008 : Shape := ⟨3, ![8, 512, 11008]⟩

abbrev nBuf : Space → Nat
  | .hbm => 6
  | .vmem => 8
  | .smem => 0
  | _ => 0

abbrev bufTy : (tb : Table) → Fin (tcTables nBuf tb) → BufTy
  | .hbm, ⟨0, _⟩ => ⟨S8x512x4096, .f32⟩
  | .hbm, ⟨1, _⟩ => ⟨S11008x4096, .i32⟩
  | .hbm, ⟨2, _⟩ => ⟨S11008, .f32⟩
  | .hbm, ⟨3, _⟩ => ⟨S4096x4096, .f32⟩
  | .hbm, ⟨4, _⟩ => ⟨S4096x11008, .f32⟩
  | .hbm, ⟨5, _⟩ => ⟨S8x512x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256, .f32⟩
  | .local _ .vmem, ⟨5, _⟩ => ⟨S256, .f32⟩
  | .local _ .vmem, ⟨6, _⟩ => ⟨S512x256, .f32⟩
  | .local _ .vmem, ⟨7, _⟩ => ⟨S512x256, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x512x4096_S4096x4096 : S8x512x4096.ShapeCasts S4096x4096
  inb_S256x4096_S256x4096_0_0 : ∀ a, (![0, 0] : Fin 2 → Nat) a + S256x4096.size a ≤ S256x4096.size a
  h_S256x4096 : 0 < S256x4096.numel
  inb_S256_S256_0 : ∀ a, (![0] : Fin 1 → Nat) a + S256.size a ≤ S256.size a
  h_S256 : 0 < S256.numel
  shapeCasts_S256_S256x1 : S256.ShapeCasts S256x1
  broadcasts_S256x1_S256x4096 : S256x1.Broadcasts S256x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  shapeCasts_S4096x11008_S8x512x11008 : S4096x11008.ShapeCasts S8x512x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S11008.size a
  hwx0_2 : ∀ i : grid0.Coords, EltTy.bits .f32 = 32 ∨ (Rect.block (s := S11008) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x11008.size a
  hwx0_3 : ∀ i : grid0.Coords, EltTy.bits .f32 = 32 ∨ (Rect.block (s := S4096x11008) S512x256.size (cc0_transform_3 i) (hinb0_3 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x4096 : Shape := ⟨3, ![8, 512, 4096]⟩
abbrev S11008x4096 : Shape := ⟨2, ![11008, 4096]⟩
abbrev S11008 : Shape := ⟨1, ![11008]⟩
abbrev S11008x1 : Shape := ⟨2, ![11008, 1]⟩
abbrev S8x512x11008 : Shape := ⟨3, ![8, 512, 11008]⟩

abbrev nBuf : Space → Nat
  | .hbm => 8
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S11008x4096, .i32⟩
  | .hbm, ⟨2, _⟩ => ⟨S11008, .f32⟩
  | .hbm, ⟨3, _⟩ => ⟨S11008x4096, .f32⟩
  | .hbm, ⟨4, _⟩ => ⟨S11008x1, .f32⟩
  | .hbm, ⟨5, _⟩ => ⟨S11008x4096, .f32⟩
  | .hbm, ⟨6, _⟩ => ⟨S11008x4096, .f32⟩
  | .hbm, ⟨7, _⟩ => ⟨S8x512x11008, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  dot_S8x512x4096_S11008x4096_S8x512x11008_2_1_01_0_n_n_wf : DotDims.WF S8x512x4096 S11008x4096 S8x512x11008 [2] [1] [0, 1] [0] [] []

variable [Facts₀]

def dot_S8x512x4096_S11008x4096_S8x512x11008_2_1_01_0_n_n : DotDims S8x512x4096 S11008x4096 S8x512x11008 where
  lhsContracting := [2]
  rhsContracting := [1]
  lhsNonContracting := [0, 1]
  rhsNonContracting := [0]
  lhsBatch := []
  rhsBatch := []
  wf := dot_S8x512x4096_S11008x4096_S8x512x11008_2_1_01_0_n_n_wf

class Facts : Prop extends Facts₀ where

variable [Facts]
-- ==== Proof.Spec.lean ====
/- The function both programs compute, and why flattening the batch does not change it.

   An activation x[b, s, k] (8 × 512 rows of 4096 numbers) is multiplied against a weight stored as integers
   w[o, k] with one scale per output row: the weight's entry is (w[o, k] read as a signed integer) · scale[o], and

       y[b, s, o] = Σ_k x[b, s, k] · (w[o, k] · scale[o]).

   One program computes this on the matrix of 4096 = 8 · 512 rows and re-lays the result; row b·512 + s of the
   matrix is row (b, s) of the array, so the two readings agree entry by entry. -/
import Idealize.ShloMosaic.PureOps.Ideal.Laws
import Idealize.ShloMosaic.Lib.Pipeline.Value
import Idealize.ShloMosaic.Lib.ValueIdx

noncomputable section

namespace Cert.QLinear

open Idealize.ShloMosaic Idealize.ShloMosaic.ValueIdx

/-- The activation, [8, 512, 4096]; the integer weight, [11008, 4096]; the scales, [11008]. -/
abbrev Xs : Shape := ⟨3, ![8, 512, 4096]⟩
abbrev Ws : Shape := ⟨2, ![11008, 4096]⟩
abbrev Ss : Shape := ⟨1, ![11008]⟩
/-- The activation and the result as matrices of 4096 rows, and the result as [8, 512, 11008]. -/
abbrev Xm : Shape := ⟨2, ![4096, 4096]⟩
abbrev Ym : Shape := ⟨2, ![4096, 11008]⟩
abbrev Ys : Shape := ⟨3, ![8, 512, 11008]⟩

/-- The weight's entry (o, k): the stored integer, read signed, times the scale of row o. -/
def deq (w : Ws.Idx → BitVec 32) (s : Ss.Idx → EReal) (o : Fin 11008) (k : Fin 4096) : EReal :=
  FloatOps.sitofp (F := Ideal) .f32 (w (ix2 o k)) * s (ix1 o)

/-- The product on the matrix of rows: entry (r, o) is Σ_k x[r, k] · weight[o, k]. -/
def linRows (x : Xm.Idx → EReal) (w : Ws.Idx → BitVec 32) (s : Ss.Idx → EReal) : Ym.Idx → EReal :=
  fun i => ∑ k : Fin 4096, x (ix2 (i 0) k) * deq w s (i 1) k

/-- The product on the array: entry (b, s, o) is Σ_k x[b, s, k] · weight[o, k]. -/
def lin (x : Xs.Idx → EReal) (w : Ws.Idx → BitVec 32) (s : Ss.Idx → EReal) : Ys.Idx → EReal :=
  fun i => ∑ k : Fin 4096, x (ix3 (i 0) (i 1) k) * deq w s (i 2) k

/-- Row b·512 + s of the flattened activation is row (b, s) of the array, and entry (b, s, o) of the re-laid result
    is entry (b·512 + s, o) of the matrix: the product of the flattened rows, re-laid, is the product on the array. -/
theorem relaid_linRows (x : Xs.Idx → EReal) (w : Ws.Idx → BitVec 32) (s : Ss.Idx → EReal)
    (h1 : Xs.ShapeCasts Xm) (h2 : Ym.ShapeCasts Ys) :
    shapeCast Ys (linRows (shapeCast Xm x h1) w s) h2 = lin x w s := by
  funext i
  obtain ⟨b, r, o, rfl⟩ : ∃ (b : Fin 8) (r : Fin 512) (o : Fin 11008), i = ix3 b r o := ⟨i 0, i 1, i 2, eq_ix3 i⟩
  have hbr : b.val * 512 + r.val < 4096 := by have := b.isLt; have := r.isLt; omega
  rw [shapeCast_apply _ h2 (ix3 b r o) (ix2 ⟨b.val * 512 + r.val, hbr⟩ o) (by
    rw [Shape.rowMajor_val_two, Shape.rowMajor_val_three]; rfl)]
  unfold linRows lin
  refine Finset.sum_congr rfl fun k _ => ?_
  rw [shapeCast_apply x h1 (ix2 ⟨b.val * 512 + r.val, hbr⟩ k) (ix3 b r k) (by
    rw [Shape.rowMajor_val_two, Shape.rowMajor_val_three]; rfl)]

end Cert.QLinear

end
-- ==== Proof.Reference.lean ====
/- The reference program's result, entry by entry.

   The reference converts the integer weight, spreads the scales over the rows ([11008] → [11008, 1] → [11008, 4096]),
   multiplies, and contracts the activation's last axis against the weight's: entry (b, s, o) of its result is
   Σ_k x[b, s, k] · (w[o, k] · scale[o]) — the product on the array of Spec.lean. -/
import proofs.«171561_j5085241279143_1_alg».proof.Proof.Gen.ReferenceIdeal.Read
import proofs.«171561_j5085241279143_1_alg».proof.Proof.Spec

noncomputable section

namespace Cert.QLinear.Reference

open Idealize.ShloMosaic Idealize.ShloMosaic.ValueIdx Cert.ReferenceIdeal Cert.ReferenceIdeal.Read

/-- The contraction reads the activation at (b, s, k), -/
theorem lidx_eq (b : Fin 8) (r : Fin 512) (o : Fin 11008) (k : Fin 4096) : lidx_main_v4 (ix3 b r o) k = ix3 b r k :=
  funext fun a => Fin.ext (by match a with | ⟨0, _⟩ => rfl | ⟨1, _⟩ => rfl | ⟨2, _⟩ => rfl)
/-- the weight at (o, k), -/
theorem ridx_eq (b : Fin 8) (r : Fin 512) (o : Fin 11008) (k : Fin 4096) : ridx_main_v4 (ix3 b r o) k = ix2 o k :=
  funext fun a => Fin.ext (by match a with | ⟨0, _⟩ => rfl | ⟨1, _⟩ => rfl)
/-- and the scale spread over row o at o. -/
theorem sidx_eq (o : Fin 11008) (k : Fin 4096) : idx_main_v1 (idx_main_v2 (ix2 o k)) = ix1 o :=
  funext fun a => Fin.ext (by match a with | ⟨0, _⟩ => rfl)

/-- The reference's result is the product on the array. -/
theorem result_eq (x : S8x512x4096.Idx → EReal) (w : S11008x4096.Idx → BitVec 32) (s : S11008.Idx → EReal) :
    val_main_v4 (F := Ideal) x w s = lin x w s := by
  funext i
  obtain ⟨b, r, o, rfl⟩ : ∃ (b : Fin 8) (r : Fin 512) (o : Fin 11008), i = ix3 b r o := ⟨i 0, i 1, i 2, eq_ix3 i⟩
  rw [val_main_v4_apply]
  unfold lin deq
  refine Finset.sum_congr rfl fun k _ => ?_
  rw [val_main_v3_apply, val_main_v0_apply, val_main_v2_apply, val_main_v1_apply, lidx_eq, ridx_eq, sidx_eq]
  rfl

end Cert.QLinear.Reference

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.Payload.lean ====
/- One grid point's arithmetic, entry by entry.

   At a grid point the body holds a block of 512 activation rows, a block of 256 weight rows and their 256 scales.
   It converts the integers, spreads each scale over its row ([256] → [256, 1] → [256, 4096]), multiplies, and
   contracts the 4096 columns of the two blocks into a zero accumulator (the changes of float format in between are
   the identity on extended reals).  Entry (p, q) of what it stores is Σ_k x[p, k] · (w[q, k] · scale[q]). -/
import proofs.«171561_j5085241279143_1_alg».proof.Proof.Gen.KernelIdeal.Skeleton
import proofs.«171561_j5085241279143_1_alg».proof.Proof.LibColumn
import Idealize.ShloMosaic.PureOps.Ideal.Laws
import Idealize.ShloMosaic.Lib.Pipeline.Value
import Idealize.ShloMosaic.Lib.ValueIdx

noncomputable section

namespace Cert.QLinear.Payload

open Idealize.ShloMosaic Idealize.ShloMosaic.ValueIdx Cert.KernelIdeal Cert.KernelIdeal.Gen

/-- The contraction of the two blocks' columns: at entry (p, q) and column k the left factor is read at (p, k) -/
theorem lhs0 (i : S512x256.Idx) (κ : dot_S512x4096_S256x4096_S512x256_1_1_0_0_n_n.contr.Idx) : (dot_S512x4096_S256x4096_S512x256_1_1_0_0_n_n.lhsIdx i κ 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem lhs1 (i : S512x256.Idx) (κ : dot_S512x4096_S256x4096_S512x256_1_1_0_0_n_n.contr.Idx) : (dot_S512x4096_S256x4096_S512x256_1_1_0_0_n_n.lhsIdx i κ 1).val = (κ ⟨0, by decide⟩).val :=
  dot_S512x4096_S256x4096_S512x256_1_1_0_0_n_n.lhsIdx_val_of_single rfl i κ
/-- and the right factor at (q, k). -/
theorem rhs0 (i : S512x256.Idx) (κ : dot_S512x4096_S256x4096_S512x256_1_1_0_0_n_n.contr.Idx) : (dot_S512x4096_S256x4096_S512x256_1_1_0_0_n_n.rhsIdx i κ 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rhs1 (i : S512x256.Idx) (κ : dot_S512x4096_S256x4096_S512x256_1_1_0_0_n_n.contr.Idx) : (dot_S512x4096_S256x4096_S512x256_1_1_0_0_n_n.rhsIdx i κ 1).val = (κ ⟨0, by decide⟩).val :=
  dot_S512x4096_S256x4096_S512x256_1_1_0_0_n_n.rhsIdx_val_of_single rfl i κ

/-- Entry (p, q) of the stored block: the row p of the activation block against row q of the scaled weight block. -/
theorem stored_apply (v0 : Vec Ideal S256x4096 .i32) (v2 : Vec Ideal S256 .f32) (v7 : Vec Ideal S512x4096 .f32)
    (p : Fin 512) (q : Fin 256) :
    k0_pay1 (F := Ideal) v0 v2 v7 (ix2 p q)
      = ∑ k : Fin 4096, v7 (ix2 p k) * (FloatOps.sitofp (F := Ideal) .f32 (v0 (ix2 q k)) * v2 (ix1 q)) := by
  unfold k0_pay1
  refine (Ideal.matmul_constant_zero_apply dot_S512x4096_S256x4096_S512x256_1_1_0_0_n_n none _ _ (ix2 p q)).trans ?_
  rw [← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q) ((contrEquiv1 dot_S512x4096_S256x4096_S512x256_1_1_0_0_n_n 4096 rfl rfl).symm k) = ix2 p k := funext fun a => Fin.ext (by
    match a with
    | ⟨0, _⟩ => exact lhs0 _ _
    | ⟨1, _⟩ => exact (lhs1 _ _).trans hk)
  have er : dot_S512x4096_S256x4096_S512x256_1_1_0_0_n_n.rhsIdx (ix2 p q) ((contrEquiv1 dot_S512x4096_S256x4096_S512x256_1_1_0_0_n_n 4096 rfl rfl).symm k) = ix2 q k := funext fun a => Fin.ext (by
    match a with
    | ⟨0, _⟩ => exact rhs0 _ _
    | ⟨1, _⟩ => exact (rhs1 _ _).trans hk)
  rw [el, er]
  rw [truncf_apply, truncf_apply, shapeCast_self, mulf_apply, sitofp_apply, Cert.LibColumn.broadcastTo_shapeCast_column_apply]

end Cert.QLinear.Payload

end
-- ==== Proof.Blocks.lean ====
/- From the grid's blocks to the whole matrix.

   The grid has 8 × 43 points.  Point (i, j) holds rows 512·i … 512·i + 511 of the activation matrix, rows
   256·j … 256·j + 255 of the weight and of the scales, and writes back the 512 × 256 block (i, j) of the result.
   What it writes is that block of ONE matrix — the product of Spec.lean on the rows —, and the 8 × 43 blocks tile
   the 4096 × 11008 result, so after the run the result's array is that matrix. -/
import proofs.«171561_j5085241279143_1_alg».proof.Proof.Gen.KernelIdeal.Frame
import proofs.«171561_j5085241279143_1_alg».proof.Proof.Payload
import proofs.«171561_j5085241279143_1_alg».proof.Proof.Spec

set_option maxRecDepth 16384

noncomputable section

namespace Cert.QLinear.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- Which blocks a point holds: the activation's row block is the result's, the weight's and the scales' row block is
    the result's column block, the 4096 columns are never split, and point number t is block (t / 43, t mod 43) of the result. -/
theorem block_indices : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 1) = win0_3.index t (1 : Fin 2)
    ∧ win0_3.index t (0 : Fin 2) = t.val / 43 ∧ win0_3.index t (1 : Fin 2) = t.val % 43 :=
  (by decide +kernel : ∀ t : Fin grid0.N, _)

/-- What point t writes back is block t of the product on the rows, of the arrays as the grid finds them. -/
theorem written_eq (c : Dev nD) (t : Fin cfg0.N) :
    (dats m 0 c).flushed 3 t
      = ((cfg0.win 3).blk t).view.read (Elt Ideal) (linRows (V m c main_v0) (V m c main_arg1) (V m c main_arg2)) := by
  show (cfg0.win 3).cut (grid0.coords t) ((dats m 0 c).after 3 t) = _
  rw [after0_3]
  unfold out0_3
  rw [View.canon_unit_zero zero2]
  simp only [View.ld_unit_zero (S := S256x4096) zero2, View.ld_unit_zero (S := S256) zero1, View.ld_unit_zero (S := S512x4096) zero2]
  obtain ⟨e0, e1, e2, e3, e4, -, -⟩ := block_indices t
  funext j
  obtain ⟨p, q, rfl⟩ : ∃ (p : Fin 512) (q : Fin 256), j = ix2 p q := ⟨j 0, j 1, eq_ix2 j⟩
  refine (Payload.stored_apply (iblk m c 1 t) (iblk m c 2 t) (iblk m c 0 t) p q).trans ?_
  show _ = linRows (V m c main_v0) (V m c main_arg1) (V m c main_arg2) (((cfg0.win 3).blk t).view.emb (ix2 p q))
  unfold linRows deq
  refine Finset.sum_congr rfl fun k _ => ?_
  have h0 : ((cfg0.win 0).blk t).view.emb (ix2 p k) = ix2 ((((cfg0.win 3).blk t).view.emb (ix2 p q)) 0) k := by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  have h1 : ((cfg0.win 1).blk t).view.emb (ix2 q k) = ix2 ((((cfg0.win 3).blk t).view.emb (ix2 p q)) 1) k := by
    funext a; apply Fin.ext
    match a with
    | ⟨0, _⟩ => show win0_1.index t (0 : Fin 2) * 256 + 1 * q.val = win0_3.index t (1 : Fin 2) * 256 + 1 * q.val; omega
    | ⟨1, _⟩ => show win0_1.index t (1 : Fin 2) * 4096 + 1 * k.val = k.val; omega
  have h2 : ((cfg0.win 2).blk t).view.emb (ix1 q) = ix1 ((((cfg0.win 3).blk t).view.emb (ix2 p q)) 1) := by
    funext a; apply Fin.ext
    match a with
    | ⟨0, _⟩ => show win0_2.index t (0 : Fin 1) * 256 + 1 * q.val = win0_3.index t (1 : Fin 2) * 256 + 1 * q.val; omega
  have a0 : iblk m c 0 t (ix2 p k) = V m c main_v0 (ix2 ((((cfg0.win 3).blk t).view.emb (ix2 p q)) 0) k) :=
    congrArg (V m c main_v0) h0
  have a1 : iblk m c 1 t (ix2 q k) = V m c main_arg1 (ix2 ((((cfg0.win 3).blk t).view.emb (ix2 p q)) 1) k) :=
    congrArg (V m c main_arg1) h1
  have a2 : iblk m c 2 t (ix1 q) = V m c main_arg2 (ix1 ((((cfg0.win 3).blk t).view.emb (ix2 p q)) 1)) :=
    congrArg (V m c main_arg2) h2
  rw [a0, a1, a2]

/-- An entry of the result is in point t's block when its row and its column are in the block's ranges. -/
theorem mem_block (t : Fin cfg0.N) (i : S4096x11008.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v1).slice (win0_3.rect t)).set ↔ _
  rw [View.set_slice_whole, Rect.mem_set_unit]
  exact Iff.rfl

/-- Entry (r, o) is written by point number (r / 512) · 43 + o / 256: the blocks tile the result. -/
theorem covered (i : S4096x11008.Idx) :
    ∃ t : Fin cfg0.N, (cfg0.win 3).flush t = true ∧ i ∈ ((cfg0.win 3).blk t).view.set := by
  have hi0 : (i 0).val < 4096 := (i 0).isLt
  have hi1 : (i 1).val < 11008 := (i 1).isLt
  have hN : cfg0.N = 344 := N_0
  have ht : (i 0).val / 512 * 43 + (i 1).val / 256 < cfg0.N := by rw [hN]; omega
  refine ⟨⟨(i 0).val / 512 * 43 + (i 1).val / 256, ht⟩, flush0_3 _, ?_⟩
  obtain ⟨-, -, -, -, -, e5, e6⟩ := block_indices ⟨(i 0).val / 512 * 43 + (i 1).val / 256, ht⟩
  have e5' : win0_3.index ⟨(i 0).val / 512 * 43 + (i 1).val / 256, ht⟩ (0 : Fin 2) = ((i 0).val / 512 * 43 + (i 1).val / 256) / 43 := e5
  have e6' : win0_3.index ⟨(i 0).val / 512 * 43 + (i 1).val / 256, ht⟩ (1 : Fin 2) = ((i 0).val / 512 * 43 + (i 1).val / 256) % 43 := e6
  rw [mem_block]
  intro a
  match a with
  | ⟨0, _⟩ =>
    show win0_3.index ⟨(i 0).val / 512 * 43 + (i 1).val / 256, ht⟩ (0 : Fin 2) * 512 ≤ (i 0).val
      ∧ (i 0).val < win0_3.index ⟨(i 0).val / 512 * 43 + (i 1).val / 256, ht⟩ (0 : Fin 2) * 512 + 512
    rw [e5']; omega
  | ⟨1, _⟩ =>
    show win0_3.index ⟨(i 0).val / 512 * 43 + (i 1).val / 256, ht⟩ (1 : Fin 2) * 256 ≤ (i 1).val
      ∧ (i 1).val < win0_3.index ⟨(i 0).val / 512 * 43 + (i 1).val / 256, ht⟩ (1 : Fin 2) * 256 + 256
    rw [e6']; omega

/-- After the run the result's array is the product on the rows, of the arrays as the grid finds them. -/
theorem result_rows (c : Dev nD) :
    (dats m 0 c).arrAt 3 cfg0.N = linRows (V m c main_v0) (V m c main_arg1) (V m c main_arg2) :=
  (dats m 0 c).arrAt_eq_of_cover 3 _ (fun t _ => written_eq m c t) covered

end Cert.QLinear.Blocks

end
-- ==== Proof.KernelRun.lean ====
/- The kernel program's run, with its result named.

   Around the grid the program re-lays the activation [8, 512, 4096] as the matrix of 4096 rows, and re-lays the
   grid's 4096 × 11008 result as [8, 512, 11008].  With the grid's result the product on the rows (Blocks.lean),
   the program's result is the product on the array (Spec.lean: re-laying does not change it). -/
import proofs.«171561_j5085241279143_1_alg».proof.Proof.Gen.KernelIdeal.Frame
import proofs.«171561_j5085241279143_1_alg».proof.Proof.Blocks
import proofs.«171561_j5085241279143_1_alg».proof.Proof.Spec
import Idealize.ShloMosaic.Lib.StableHlo.Run

set_option maxRecDepth 16384

noncomputable section

namespace Cert.QLinear.KernelRun

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The grid finds the activation re-laid as the matrix of rows. -/
theorem rows_in (c : Dev nD) :
    (V m c main_v0 : S4096x4096.Idx → EReal)
      = shapeCast S4096x4096 (m ((c : Thread nD τ).loc main_arg0)) shapeCasts_S8x512x4096_S4096x4096 := by
  show StableHlo.after hostOps0 (fun b => m (c, b)) (Proc.devRef .tc main_v0) = _
  after_results
  rfl

/-- The program's result is the grid's result re-laid. -/
theorem result_out (c : Dev nD) :
    (Pipeline.afterTail₀ cfgs (dats m) 0 (V0 m) [hostOps1] c main_v2 : S8x512x11008.Idx → EReal)
      = shapeCast S8x512x11008 ((dats m 0 c).arrAt 3 cfg0.N) shapeCasts_S4096x11008_S8x512x11008 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 3 cfg0.N :=
    Pipeline.withArrays_arr spec0 launch0.win.arr_inj c _ _ 3
  rw [e]
  rfl

/-- So the program's result is the product on the array, of the arguments as launched. -/
theorem result_eq (c : Dev nD) :
    (Pipeline.afterTail₀ cfgs (dats m) 0 (V0 m) [hostOps1] c main_v2 : S8x512x11008.Idx → EReal)
      = lin (m ((c : Thread nD τ).loc main_arg0)) (m ((c : Thread nD τ).loc main_arg1)) (m ((c : Thread nD τ).loc main_arg2)) := by
  rw [result_out, Blocks.result_rows, rows_in, V_main_arg1, V_main_arg2]
  exact relaid_linRows _ _ _ _ _

/-- Every weakly fair execution of the program terminates with its result at the product on the array and its
    arguments unchanged. -/
theorem run : θ_run defs (onTc (τ := τ) (main (F := Ideal))) ⟨m, fun _ => 0, ρ⟩ fun r => ∀ c : Dev nD,
      r.2.mem ((c.tc : Thread nD τ).loc main_v2)
        = lin (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.QLinear.KernelRun

end
-- ==== Proof.lean ====
/- A linear layer with an integer weight and one scale per output row, tiled over a grid, against the same
   layer written as one contraction.

   Both programs compute y[b, s, o] = Σ_k x[b, s, k] · (w[o, k] · scale[o]) on extended reals (Proof/Spec.lean):
   the reference directly (Proof/Reference.lean); the kernel by flattening the 8 × 512 rows, computing 512 × 256
   blocks of the 4096 × 11008 matrix at 8 × 43 grid points — each block the contraction of a block of rows against
   a block of scaled weight rows (Proof/Payload.lean), the blocks tiling the matrix (Proof/Blocks.lean) — and
   re-laying the result (Proof/KernelRun.lean).  Only the order of the programs' steps differs, never the
   arithmetic of an entry, so no finiteness of the inputs is used.  The three programs' runs terminate without a
   fault and leave their arguments unchanged; the idealized kernel is the kernel's text read at exact arithmetic,
   nothing rewritten. -/
import proofs.«171561_j5085241279143_1_alg».proof.Defs
import proofs.«171561_j5085241279143_1_alg».proof.Proof.Gen.Kernel
import proofs.«171561_j5085241279143_1_alg».proof.Proof.Gen.Kernel.Skeleton
import proofs.«171561_j5085241279143_1_alg».proof.Proof.Gen.Kernel.Launch
import proofs.«171561_j5085241279143_1_alg».proof.Proof.Gen.Kernel.Points
import proofs.«171561_j5085241279143_1_alg».proof.Proof.Gen.Kernel.Frame
import proofs.«171561_j5085241279143_1_alg».proof.Proof.Gen.KernelIdeal
import proofs.«171561_j5085241279143_1_alg».proof.Proof.Gen.KernelIdeal.Skeleton
import proofs.«171561_j5085241279143_1_alg».proof.Proof.Gen.KernelIdeal.Launch
import proofs.«171561_j5085241279143_1_alg».proof.Proof.Gen.KernelIdeal.Points
import proofs.«171561_j5085241279143_1_alg».proof.Proof.Gen.KernelIdeal.Frame
import proofs.«171561_j5085241279143_1_alg».proof.Proof.Gen.ReferenceIdeal
import proofs.«171561_j5085241279143_1_alg».proof.Proof.Gen.ReferenceIdeal.Run
import proofs.«171561_j5085241279143_1_alg».proof.Proof.Gen.ReferenceIdeal.Read
import proofs.«171561_j5085241279143_1_alg».proof.Proof.Gen.Pre_finite_inputs
import proofs.«171561_j5085241279143_1_alg».proof.Proof.Spec
import proofs.«171561_j5085241279143_1_alg».proof.Proof.Reference
import proofs.«171561_j5085241279143_1_alg».proof.Proof.KernelRun
import Idealize.ShloMosaic.Adequacy
import Idealize.ShloMosaic.Init

noncomputable section

namespace Cert.Proof

open Idealize.ShloMosaic Idealize.ShloMosaic.TcCoe Idealize.SL.Sem

/-- The kernel program runs and keeps its arguments, at the word level and at exact arithmetic. -/
theorem frame_kernel : Cert.frame_Kernel := fun m ρ _ => Cert.Kernel.Gen.frame m ρ
theorem frame_kernelIdeal : Cert.frame_KernelIdeal := fun m ρ _ => Cert.KernelIdeal.Gen.frame m ρ
/-- The reference program runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the product on the array of the same arguments. -/
theorem algebraic : Cert.algebraic_KernelIdeal_ReferenceIdeal := by
  intro m ρ m' ρ' _ hagree
  refine ⟨_, Cert.QLinear.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.QLinear.Reference.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
